-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) (main_arg3 : IVec S128x128 1) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S16384x4096 : Shape := ⟨2, ![16384, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S128x128, .i1⟩
  | .hbm, ⟨4, _⟩ => ⟨S128x32x128, .i1⟩
  | .hbm, ⟨5, _⟩ => ⟨S4096x128, .i1⟩
  | .hbm, ⟨6, _⟩ => ⟨S4096x128x32, .i1⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S16384x4096, .f32⟩
  | .hbm, ⟨12, _⟩ => ⟨S16384x4096, .bf16⟩
  | .hbm, ⟨13, _⟩ => ⟨S1x4096, .f32⟩
  | .hbm, ⟨14, _⟩ => ⟨S16384x4096, .f32⟩
  | .hbm, ⟨15, _⟩ => ⟨S8x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S8x2048x4096 : S16384x4096.ShapeCasts S8x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S128x128, .i1⟩
  | .hbm, ⟨4, _⟩ => ⟨S128x32x128, .i1⟩
  | .hbm, ⟨5, _⟩ => ⟨S4096x128, .i1⟩
  | .hbm, ⟨6, _⟩ => ⟨S4096x128x32, .i1⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S8x2048x4096, .f32⟩
  | .hbm, ⟨11, _⟩ => ⟨S8x2048x4096, .f32⟩
  | .hbm, ⟨12, _⟩ => ⟨S1x1x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one grid point leaves behind, as values.

  The body keeps a running [2048, 1024] accumulator in a scratch buffer that survives from one grid point to the next.
  At every point it adds to the accumulator the product of the point's [2048, 512] block of activations with the
  transpose of the point's [1024, 512] block of weights.  At the first point of a run of eight it first clears the
  accumulator; at the last point of the run it also writes "twice the accumulator plus the bias row" to the output block.
  Each statement below reads the buffers' contents after the body as the body's arithmetic applied to the contents before.
-/
import proofs.«152369_j17849884082260_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem zero_offsets : (![0, 0] : Fin 2 → Nat) = fun _ => 0 := funext fun a => by fin_cases a <;> rfl

/-- A middle point of a run: the accumulator holding `acc` ends at `acc` plus the product of the two blocks. -/
theorem scratch_mid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S1024x512 .bf16) (x2 : Vec F S1x1024 .f32) (acc : Vec F S2048x1024 .f32) :
    sout0_B_0 c i arg3 harg3 arg4 harg4 arg5 harg5 arg6 harg6 arg7 harg7 hc0 hc1 x0 x1 x2 acc = k0_pay2 acc x0 x1 := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  rw [View.canon_unit_zero zero_offsets]
  simp only [View.readAt_eq_ld, harg7.read_unread, harg3.read_unread, harg4.read_unread, harg5.read_unread, View.ld_unit_zero (S := S2048x1024) zero_offsets, View.ld_unit_zero (S := S2048x512) zero_offsets, View.ld_unit_zero (S := S1024x512) zero_offsets, View.ld_unit_zero (S := S1x1024) zero_offsets]

/-- The last point of a run leaves the same in the accumulator. -/
theorem scratch_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (acc : Vec F S2048x1024 .f32) :
    sout0_C_0 c i arg3 harg3 arg4 harg4 arg5 harg5 arg6 harg6 arg7 harg7 hc0 hc1 x0 x1 x2 acc = k0_pay2 acc x0 x1 := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero zero_offsets]
  simp only [View.readAt_eq_ld, harg7.read_unread, harg3.read_unread, harg4.read_unread, harg5.read_unread, View.ld_unit_zero (S := S2048x1024) zero_offsets, View.ld_unit_zero (S := S2048x512) zero_offsets, View.ld_unit_zero (S := S1024x512) zero_offsets, View.ld_unit_zero (S := S1x1024) zero_offsets]

/-- The last point of a run writes to the output block the epilogue of the updated accumulator and the bias row. -/
theorem out_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (acc : Vec F S2048x1024 .f32) :
    out0_C_3 c i arg3 harg3 arg4 harg4 arg5 harg5 arg6 harg6 arg7 harg7 hc0 hc1 x0 x1 x2 acc = k0_pay3 (k0_pay2 acc x0 x1) x2 := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero zero_offsets, View.readCov_unit_zero (S := S2048x1024) _ zero_offsets]
  simp only [View.readAt_eq_ld, harg7.read_unread, harg3.read_unread, harg4.read_unread, harg5.read_unread, View.ld_unit_zero (S := S2048x1024) zero_offsets, View.ld_unit_zero (S := S2048x512) zero_offsets, View.ld_unit_zero (S := S1024x512) zero_offsets, View.ld_unit_zero (S := S1x1024) zero_offsets]

/-- The first point of a run clears the accumulator first, so it ends at zero plus the product of the two blocks. -/
theorem scratch_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) zero_offsets, View.readCov_unit_zero (S := S2048x1024) _ zero_offsets]
  simp only [View.readAt_eq_ld, harg7.read_unread, harg3.read_unread, harg4.read_unread, harg5.read_unread, View.ld_unit_zero (S := S2048x1024) zero_offsets, View.ld_unit_zero (S := S2048x512) zero_offsets, View.ld_unit_zero (S := S1024x512) zero_offsets, View.ld_unit_zero (S := S1x1024) zero_offsets]

/-! ## The same, at a grid point: the accumulator and the output block after point `n` from the accumulator after point `n - 1` -/

variable (m : (ℓ : Loc nD τ sig) → Buf (Elt F) ℓ)

/-- After the first point of a run the accumulator is the cleared accumulator plus that point's product. -/
theorem acc_first (c : Dev nD) (n : ℕ) (h : n < cfg0.N) (h0 : n % 8 = 0) (h1 : ¬n % 8 = 7) :
    (outsAt0 m c n h).2 = k0_pay2 (k0_pay1 (F := F)) (iblk m c 0 ⟨n, h⟩) (iblk m c 1 ⟨n, h⟩) := by
  rw [outsAt0_A m c ⟨n, h⟩ h0 h1]
  dsimp only
  rw [scratch_first]

/-- After a middle point it is what the point before left plus that point's product. -/
theorem acc_mid (c : Dev nD) (n : ℕ) (h : n < cfg0.N) (h0 : ¬n % 8 = 0) (h1 : ¬n % 8 = 7) :
    (outsAt0 m c n h).2
      = k0_pay2 (outsAt0 m c (n - 1) (Nat.lt_of_le_of_lt (Nat.sub_le _ _) h)).2 (iblk m c 0 ⟨n, h⟩) (iblk m c 1 ⟨n, h⟩) := by
  rw [outsAt0_B m c ⟨n, h⟩ h0 h1]
  dsimp only
  rw [scratch_mid]

/-- After the last point of a run likewise. -/
theorem acc_last (c : Dev nD) (n : ℕ) (h : n < cfg0.N) (h0 : ¬n % 8 = 0) (h1 : n % 8 = 7) :
    (outsAt0 m c n h).2
      = k0_pay2 (outsAt0 m c (n - 1) (Nat.lt_of_le_of_lt (Nat.sub_le _ _) h)).2 (iblk m c 0 ⟨n, h⟩) (iblk m c 1 ⟨n, h⟩) := by
  rw [outsAt0_C m c ⟨n, h⟩ h0 h1]
  dsimp only
  rw [scratch_last]

/-- And the output block after the last point of a run is the epilogue of that accumulator and the bias block. -/
theorem out_at_last (c : Dev nD) (n : ℕ) (h : n < cfg0.N) (h0 : ¬n % 8 = 0) (h1 : n % 8 = 7) :
    (outsAt0 m c n h).1 = k0_pay3 (outsAt0 m c n h).2 (iblk m c 2 ⟨n, h⟩) := by
  rw [acc_last m c n h h0 h1, outsAt0_C m c ⟨n, h⟩ h0 h1]
  dsimp only
  rw [out_last]

end Cert.KernelIdeal.Pieces

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.Payloads.lean ====
/-
  The body's arithmetic on the extended reals, one entry at a time.

  Clearing stores zero.  The accumulation step adds to entry (p, q) of the accumulator the dot product of row p of the
  activation block with row q of the weight block (the product is against the transposed weight block).  The epilogue
  doubles entry (p, q) of the accumulator and adds entry q of the bias row.
-/
import proofs.«152369_j17849884082260_2_alg».proof.Proof.Gen.KernelIdeal.Skeleton
import proofs.«152369_j17849884082260_2_alg».proof.Proof.LibDenseNT
import Idealize.ShloMosaic.Lib.Pipeline.Value
import Idealize.ShloMosaic.Lib.ValueIdx
import Idealize.ShloMosaic.PureOps.Ideal.Laws

noncomputable section

namespace Cert.KernelIdeal.Payloads

open Idealize.ShloMosaic Idealize.ShloMosaic.ValueIdx
open Cert.KernelIdeal Cert.KernelIdeal.Gen Cert.Lib.DenseNT

/-- The single-precision pattern of 2.0 denotes the real number 2. -/
theorem two_denotes : Ideal.ofBits .f32 0x40000000#32 = ((2 : ℝ) : EReal) := by
  simp [Ideal.ofBits, Ideal.ieee, -EReal.coe_mul]; norm_num

/-- Clearing: every entry is zero. -/
theorem cleared_at (j : S2048x1024.Idx) : k0_pay1 (F := Ideal) j = 0 := by
  unfold k0_pay1
  simp only [shapeCast_self]
  exact Ideal.ofBits_zero_f32

/-- The accumulation step at entry (p, q). -/
theorem accumulate_at (acc : Vec Ideal S2048x1024 .f32) (x : Vec Ideal S2048x512 .bf16) (w : Vec Ideal S1024x512 .bf16)
    (p : Fin 2048) (q : Fin 1024) :
    k0_pay2 (F := Ideal) acc x w (ix2 p q) = acc (ix2 p q) + rowRowDot x w p q := by
  unfold k0_pay2
  simp only [shapeCast_self]
  exact congrArg (acc (ix2 p q) + ·)
    (matmul_zero_at dot_S2048x512_S1024x512_S2048x1024_1_1_0_0_n_n rfl rfl rfl rfl rfl rfl none x w p q)

/-- The epilogue at entry (p, q). -/
theorem epilogue_at (acc : Vec Ideal S2048x1024 .f32) (b : Vec Ideal S1x1024 .f32) (p : Fin 2048) (q : Fin 1024) :
    k0_pay3 (F := Ideal) acc b (ix2 p q) = ((2 : ℝ) : EReal) * acc (ix2 p q) + b (ix2 0 q) := by
  unfold k0_pay3
  simp only [shapeCast_self]
  have hb : broadcastTo S2048x1024 b broadcasts_S1x1024_S2048x1024 (ix2 p q) = b (ix2 0 q) :=
    broadcastTo_apply b broadcasts_S1x1024_S2048x1024 (ix2 p q) (ix2 0 q) (fun a => by
      match a with
      | ⟨0, _⟩ => rfl
      | ⟨1, _⟩ => rfl)
  show Ideal.ofBits .f32 0x40000000#32 * acc (ix2 p q) + broadcastTo S2048x1024 b broadcasts_S1x1024_S2048x1024 (ix2 p q) = _
  rw [hb, two_denotes]

end Cert.KernelIdeal.Payloads

end
-- ==== Proof.LibRangeTiles.lean ====
/-
  Two small tools for sums taken tile by tile.

  A sum over T consecutive tiles of width B is the sum over the first T · B natural numbers; it uses only that addition is
  commutative and associative, so it holds in the extended reals.  And a rank-2 array of extended reals extended by zero to
  all pairs of natural numbers, so that row and column arithmetic can be done on plain naturals.
-/
import Idealize.ShloMosaic.Lib.ValueIdx
import Idealize.ShloMosaic.PureOps.Ideal

noncomputable section

namespace BlockSparse

open Idealize.ShloMosaic Idealize.ShloMosaic.ValueIdx
open scoped BigOperators

/-- A sum over `T` consecutive tiles of width `B` is the sum over the first `T · B` naturals. -/
theorem sum_range_tiles {M : Type*} [AddCommMonoid M] (f : ℕ → M) (B : ℕ) :
    ∀ T : ℕ, ∑ s ∈ Finset.range T, ∑ k ∈ Finset.range B, f (s * B + k) = ∑ n ∈ Finset.range (T * B), f n
  | 0 => by simp
  | T + 1 => by
    rw [Finset.sum_range_succ, sum_range_tiles f B T, Nat.succ_mul, Finset.sum_range_add]

/-- A rank-2 array read at a pair of naturals: the entry when both are in range, zero otherwise. -/
def at2 {A B : ℕ} (f : (⟨2, ![A, B]⟩ : Shape).Idx → EReal) (a b : ℕ) : EReal :=
  if h : a < A ∧ b < B then f (ix2 ⟨a, h.1⟩ ⟨b, h.2⟩) else 0

/-- In range it is the entry. -/
theorem at2_of_lt {A B : ℕ} (f : (⟨2, ![A, B]⟩ : Shape).Idx → EReal) {a b : ℕ} (ha : a < A) (hb : b < B) :
    at2 f a b = f (ix2 ⟨a, ha⟩ ⟨b, hb⟩) := dif_pos ⟨ha, hb⟩

end BlockSparse

end
-- ==== Proof.Tiles.lean ====
/-
  Sums over 4096 columns taken eight tiles of 512 at a time, and the specification of the layer.

  A dot product over 4096 columns is the sum of eight partial dot products, one per tile of 512 consecutive columns;
  the running total after the first T tiles is the dot product over the first 512·T columns.  Only commutativity and
  associativity of addition are used, so everything holds on the extended reals with no finiteness assumption.
  Arrays are read at pairs of natural numbers (zero outside their bounds) so that the arithmetic on row and column
  numbers is plain arithmetic of natural numbers.
-/
import proofs.«152369_j17849884082260_2_alg».proof.Proof.LibRangeTiles

noncomputable section

namespace BlockSparse

open Idealize.ShloMosaic Idealize.ShloMosaic.ValueIdx
open scoped BigOperators

/-- Row `a` of `X` against row `o` of `W`, over the first `T` tiles of 512 columns. -/
def partialDot (X : (⟨2, ![16384, 4096]⟩ : Shape).Idx → EReal) (W : (⟨2, ![4096, 4096]⟩ : Shape).Idx → EReal)
    (a o T : ℕ) : EReal :=
  ∑ s ∈ Finset.range T, ∑ k ∈ Finset.range 512, at2 X a (s * 512 + k) * at2 W o (s * 512 + k)

/-- One more tile. -/
theorem partialDot_succ (X : (⟨2, ![16384, 4096]⟩ : Shape).Idx → EReal) (W : (⟨2, ![4096, 4096]⟩ : Shape).Idx → EReal)
    (a o T : ℕ) :
    partialDot X W a o (T + 1)
      = partialDot X W a o T + ∑ k ∈ Finset.range 512, at2 X a (T * 512 + k) * at2 W o (T * 512 + k) :=
  Finset.sum_range_succ _ T

/-- The first tile alone. -/
theorem partialDot_one (X : (⟨2, ![16384, 4096]⟩ : Shape).Idx → EReal) (W : (⟨2, ![4096, 4096]⟩ : Shape).Idx → EReal)
    (a o : ℕ) :
    partialDot X W a o 1 = ∑ k ∈ Finset.range 512, at2 X a (0 * 512 + k) * at2 W o (0 * 512 + k) := by
  unfold partialDot; rw [Finset.sum_range_one]

/-- All eight tiles: the whole dot product of row `a` of `X` with row `o` of `W`. -/
theorem partialDot_eight (X : (⟨2, ![16384, 4096]⟩ : Shape).Idx → EReal) (W : (⟨2, ![4096, 4096]⟩ : Shape).Idx → EReal)
    (a : Fin 16384) (o : Fin 4096) :
    partialDot X W a.val o.val 8 = ∑ k : Fin 4096, X (ix2 a k) * W (ix2 o k) := by
  unfold partialDot
  rw [sum_range_tiles (fun n => at2 X a.val n * at2 W o.val n) 512 8,
    ← Fin.sum_univ_eq_sum_range (fun n => at2 X a.val n * at2 W o.val n) (8 * 512)]
  refine Finset.sum_congr rfl fun k _ => ?_
  rw [at2_of_lt X a.isLt k.isLt, at2_of_lt W o.isLt k.isLt]

/-- The layer on the flattened batch: entry (a, o) is twice the dot product of row `a` of the activations with row
    `o` of the masked weights, plus entry `o` of the bias row. -/
def layerEntry (X : (⟨2, ![16384, 4096]⟩ : Shape).Idx → EReal) (W : (⟨2, ![4096, 4096]⟩ : Shape).Idx → EReal)
    (b : (⟨2, ![1, 4096]⟩ : Shape).Idx → EReal) (a : Fin 16384) (o : Fin 4096) : EReal :=
  ((2 : ℝ) : EReal) * (∑ k : Fin 4096, X (ix2 a k) * W (ix2 o k)) + b (ix2 0 o)

/-- The same as a whole [16384, 4096] array. -/
def layer (X : (⟨2, ![16384, 4096]⟩ : Shape).Idx → EReal) (W : (⟨2, ![4096, 4096]⟩ : Shape).Idx → EReal)
    (b : (⟨2, ![1, 4096]⟩ : Shape).Idx → EReal) : (⟨2, ![16384, 4096]⟩ : Shape).Idx → EReal :=
  fun i => layerEntry X W b (i 0) (i 1)

end BlockSparse

end
-- ==== Proof.Accum.lean ====
/-
  The running accumulator over a run of eight grid points, on the extended reals.

  The grid is 8 × 4 × 8, visited row-major; point n has row tile n / 32, column tile (n / 8) mod 4 and contraction tile
  n mod 8.  The activation block of point n is rows [2048·(n/32), +2048) and columns [512·(n mod 8), +512) of the
  [16384, 4096] activations; the weight block is rows [1024·((n/8) mod 4), +1024) and the same columns of the masked
  weights; the bias block is columns [1024·((n/8) mod 4), +1024) of the bias row.
  After point n the accumulator's entry (r, q) is the dot product of activation row 2048·(n/32) + r with weight row
  1024·((n/8) mod 4) + q over the first (n mod 8) + 1 tiles of 512 columns — by induction on the point.
-/
import proofs.«152369_j17849884082260_2_alg».proof.Proof.Pieces
import proofs.«152369_j17849884082260_2_alg».proof.Proof.Payloads
import proofs.«152369_j17849884082260_2_alg».proof.Proof.Tiles

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Pieces Cert.KernelIdeal.Payloads Cert.Lib.DenseNT BlockSparse

variable (m : (ℓ : Loc nD τ sig) → Buf (Elt Ideal) ℓ)

/-- The activations, the masked weights and the bias row as the kernel's region finds them. -/
abbrev acts (c : Dev nD) : S16384x4096.Idx → EReal := V m c main_v8
abbrev wts (c : Dev nD) : S4096x4096.Idx → EReal := V m c main_v6
abbrev biasRow (c : Dev nD) : S1x4096.Idx → EReal := V m c main_v9

/-- Where each window's block sits at point `t`, decided once over the 256 points. -/
theorem block_indices : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The activation block at point `t`, entry (r, k). -/
theorem acts_block (c : Dev nD) (t : Fin cfg0.N) (r : Fin 2048) (k : Fin 512) :
    iblk m c 0 t (ix2 r k) = at2 (acts m c) (t.val / 32 * 2048 + r.val) (t.val % 8 * 512 + k.val) := by
  obtain ⟨e0, e1, -⟩ := block_indices t
  have hN : t.val < 256 := lt_of_lt_of_eq t.isLt (show cfg0.N = 256 from N_0)
  rw [at2_of_lt (A := 16384) (B := 4096) _ (by omega) (by omega)]
  show V m c main_v8 (((cfg0.win 0).blk t).view.emb (ix2 r k)) = V m c main_v8 _
  refine congrArg (V m c main_v8) (funext fun a => Fin.ext ?_)
  match a with
  | ⟨0, _⟩ => show win0_0.index t (0 : Fin 2) * 2048 + 1 * r.val = t.val / 32 * 2048 + r.val; rw [e0]; omega
  | ⟨1, _⟩ => show win0_0.index t (1 : Fin 2) * 512 + 1 * k.val = t.val % 8 * 512 + k.val; rw [e1]; omega

/-- The weight block at point `t`, entry (q, k). -/
theorem wts_block (c : Dev nD) (t : Fin cfg0.N) (q : Fin 1024) (k : Fin 512) :
    iblk m c 1 t (ix2 q k) = at2 (wts m c) (t.val / 8 % 4 * 1024 + q.val) (t.val % 8 * 512 + k.val) := by
  obtain ⟨-, -, e0, e1, -⟩ := block_indices t
  have hN : t.val < 256 := lt_of_lt_of_eq t.isLt (show cfg0.N = 256 from N_0)
  rw [at2_of_lt (A := 4096) (B := 4096) _ (by omega) (by omega)]
  show V m c main_v6 (((cfg0.win 1).blk t).view.emb (ix2 q k)) = V m c main_v6 _
  refine congrArg (V m c main_v6) (funext fun a => Fin.ext ?_)
  match a with
  | ⟨0, _⟩ => show win0_1.index t (0 : Fin 2) * 1024 + 1 * q.val = t.val / 8 % 4 * 1024 + q.val; rw [e0]; omega
  | ⟨1, _⟩ => show win0_1.index t (1 : Fin 2) * 512 + 1 * k.val = t.val % 8 * 512 + k.val; rw [e1]; omega

/-- The bias block at point `t`, entry (0, q). -/
theorem bias_block (c : Dev nD) (t : Fin cfg0.N) (q : Fin 1024) :
    iblk m c 2 t (ix2 0 q) = at2 (biasRow m c) 0 (t.val / 8 % 4 * 1024 + q.val) := by
  obtain ⟨-, -, -, -, e0, e1, -⟩ := block_indices t
  have hN : t.val < 256 := lt_of_lt_of_eq t.isLt (show cfg0.N = 256 from N_0)
  rw [at2_of_lt (A := 1) (B := 4096) _ (by omega) (by omega)]
  show V m c main_v9 (((cfg0.win 2).blk t).view.emb (ix2 0 q)) = V m c main_v9 _
  refine congrArg (V m c main_v9) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 8 % 4 * 1024 + q.val; rw [e1]; omega

/-- The product of point `n`'s two blocks at entry (r, q): one tile of the dot product. -/
theorem tile_dot (c : Dev nD) (n : ℕ) (h : n < cfg0.N) (r : Fin 2048) (q : Fin 1024) :
    rowRowDot (M := 2048) (K := 512) (N := 1024) (iblk m c 0 ⟨n, h⟩) (iblk m c 1 ⟨n, h⟩) r q
      = ∑ k ∈ Finset.range 512, at2 (acts m c) (n / 32 * 2048 + r.val) (n % 8 * 512 + k)
          * at2 (wts m c) (n / 8 % 4 * 1024 + q.val) (n % 8 * 512 + k) := by
  unfold rowRowDot
  rw [← Fin.sum_univ_eq_sum_range (fun k => at2 (acts m c) (n / 32 * 2048 + r.val) (n % 8 * 512 + k)
          * at2 (wts m c) (n / 8 % 4 * 1024 + q.val) (n % 8 * 512 + k)) 512]
  exact Finset.sum_congr rfl fun k _ => by rw [acts_block m c ⟨n, h⟩ r k, wts_block m c ⟨n, h⟩ q k]

/-- THE INVARIANT: the accumulator after point `n`. -/
theorem acc_eq (c : Dev nD) (n : ℕ) : ∀ (h : n < cfg0.N) (r : Fin 2048) (q : Fin 1024),
    (outsAt0 m c n h).2 (ix2 r q)
      = partialDot (acts m c) (wts m c) (n / 32 * 2048 + r.val) (n / 8 % 4 * 1024 + q.val) (n % 8 + 1) := by
  induction n using Nat.strong_induction_on with
  | _ n ih =>
    intro h r q
    by_cases h0 : n % 8 = 0
    · have h1 : ¬n % 8 = 7 := by omega
      rw [congrFun (acc_first m c n h h0 h1) (ix2 r q), accumulate_at, cleared_at, zero_add, tile_dot m c n h r q,
        show n % 8 + 1 = 1 from by omega, partialDot_one, h0]
    · have hprev := ih (n - 1) (by omega) (Nat.lt_of_le_of_lt (Nat.sub_le _ _) h) r q
      rw [show (n - 1) / 32 = n / 32 from by omega, show (n - 1) / 8 % 4 = n / 8 % 4 from by omega,
        show (n - 1) % 8 + 1 = n % 8 from by omega] at hprev
      have hstep : (outsAt0 m c n h).2
          = k0_pay2 (outsAt0 m c (n - 1) (Nat.lt_of_le_of_lt (Nat.sub_le _ _) h)).2 (iblk m c 0 ⟨n, h⟩) (iblk m c 1 ⟨n, h⟩) := by
        by_cases h1 : n % 8 = 7
        · exact acc_last m c n h h0 h1
        · exact acc_mid m c n h h0 h1
      rw [congrFun hstep (ix2 r q), accumulate_at, hprev, tile_dot m c n h r q, partialDot_succ]

end Cert.KernelIdeal.Accum

end
-- ==== Proof.Spec.lean ====
/-
  The layer as one function of its three arrays: for a batch element b, a sequence position s and an output feature o,

      out(b, s, o) = 2 · ( Σₖ x(b, s, k) · W(o, k) ) + bias(o),

  the sum over the 4096 input features, `W` the (already masked) [4096, 4096] weight matrix indexed output-feature first.
-/
import Idealize.ShloMosaic.Lib.ValueIdx
import Idealize.ShloMosaic.PureOps.Ideal

noncomputable section

namespace BlockSparse

open Idealize.ShloMosaic Idealize.ShloMosaic.ValueIdx
open scoped BigOperators

/-- One entry of the layer's result. -/
def linearEntry (x : (⟨3, ![8, 2048, 4096]⟩ : Shape).Idx → EReal) (W : (⟨2, ![4096, 4096]⟩ : Shape).Idx → EReal)
    (bias : (⟨1, ![4096]⟩ : Shape).Idx → EReal) (b : Fin 8) (s : Fin 2048) (o : Fin 4096) : EReal :=
  ((2 : ℝ) : EReal) * (∑ k : Fin 4096, x (ix3 b s k) * W (ix2 o k)) + bias (ix1 o)

/-- The layer's result as a whole [8, 2048, 4096] array. -/
def linear (x : (⟨3, ![8, 2048, 4096]⟩ : Shape).Idx → EReal) (W : (⟨2, ![4096, 4096]⟩ : Shape).Idx → EReal)
    (bias : (⟨1, ![4096]⟩ : Shape).Idx → EReal) : (⟨3, ![8, 2048, 4096]⟩ : Shape).Idx → EReal :=
  fun i => linearEntry x W bias (i 0) (i 1) (i 2)

theorem linear_apply (x : (⟨3, ![8, 2048, 4096]⟩ : Shape).Idx → EReal) (W : (⟨2, ![4096, 4096]⟩ : Shape).Idx → EReal)
    (bias : (⟨1, ![4096]⟩ : Shape).Idx → EReal) (b : Fin 8) (s : Fin 2048) (o : Fin 4096) :
    linear x W bias (ix3 b s o) = linearEntry x W bias b s o := rfl

end BlockSparse

end
-- ==== Proof.Final.lean ====
/-
  What the kernel's result holds after the run.

  The last point of each run of eight writes its [2048, 1024] output block back; block (n/32, (n/8) mod 4) of the
  [16384, 4096] result array is then, entry by entry, twice the full 4096-column dot product plus the bias entry: the layer on
  the flattened batch.  The 32 written blocks tile the array, so the whole array is the layer.  Around the region the host
  only re-lays data: the activations are the [8, 2048, 4096] input read as [16384, 4096] rows, the bias row is the bias
  vector, and the final result is the [16384, 4096] array read as [8, 2048, 4096]; changes of float format are the identity
  on the extended reals.
-/
import proofs.«152369_j17849884082260_2_alg».proof.Proof.Accum
import proofs.«152369_j17849884082260_2_alg».proof.Proof.Spec
import Idealize.ShloMosaic.Lib.StableHlo.Run

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Payloads Cert.KernelIdeal.Accum BlockSparse

variable (m : (ℓ : Loc nD τ sig) → Buf (Elt Ideal) ℓ) (ρ : Dev nD → PrngReg)

/-! ## The output block a run's last point writes -/

/-- Entry (r, q) of the output block after the last point `n` of a run. -/
theorem out_block (c : Dev nD) (n : ℕ) (h : n < cfg0.N) (h7 : n % 8 = 7) (r : Fin 2048) (q : Fin 1024)
    (ha : n / 32 * 2048 + r.val < 16384) (ho : n / 8 % 4 * 1024 + q.val < 4096) :
    (outsAt0 m c n h).1 (ix2 r q) = layerEntry (acts m c) (wts m c) (biasRow m c) ⟨_, ha⟩ ⟨_, ho⟩ := by
  have h0 : ¬n % 8 = 0 := by omega
  rw [congrFun (out_at_last m c n h h0 h7) (ix2 r q), epilogue_at, acc_eq m c n h r q, bias_block m c ⟨n, h⟩ q,
    show n % 8 + 1 = 8 from by omega, at2_of_lt (A := 1) (B := 4096) _ Nat.one_pos ho]
  unfold layerEntry
  rw [← partialDot_eight (acts m c) (wts m c) ⟨_, ha⟩ ⟨_, ho⟩]
  rfl

/-- What a flushing point writes back is its block of the layer. -/
theorem flushed_eq (c : Dev nD) (t : Fin cfg0.N) (hf : (cfg0.win 3).flush t = true) :
    (dats m 0 c).flushed 3 t
      = ((cfg0.win 3).blk t).view.read (Elt Ideal) (layer (acts m c) (wts m c) (biasRow m c)) := by
  have h7 : t.val % 8 = 7 := (flush0_3 t).mp hf
  have hN : t.val < 256 := lt_of_lt_of_eq t.isLt (show cfg0.N = 256 from N_0)
  obtain ⟨-, -, -, -, -, -, e0, e1⟩ := block_indices t
  show (cfg0.win 3).cut (grid0.coords t) ((dats m 0 c).after 3 t) = _
  rw [after0_3]
  funext j
  obtain ⟨r, q, rfl⟩ : ∃ (r : Fin 2048) (q : Fin 1024), j = ix2 r q := ⟨j 0, j 1, eq_ix2 j⟩
  have ha : t.val / 32 * 2048 + r.val < 16384 := by omega
  have ho : t.val / 8 % 4 * 1024 + q.val < 4096 := by omega
  show (outsAt0 m c t.val t.isLt).1 (ix2 r q)
    = layer (acts m c) (wts m c) (biasRow m c) (((cfg0.win 3).blk t).view.emb (ix2 r q))
  rw [out_block m c t.val t.isLt h7 r q ha ho]
  have c0 : (((cfg0.win 3).blk t).view.emb (ix2 r q)) 0 = (⟨t.val / 32 * 2048 + r.val, ha⟩ : Fin 16384) :=
    Fin.ext (by show win0_3.index t (0 : Fin 2) * 2048 + 1 * r.val = t.val / 32 * 2048 + r.val; rw [e0]; omega)
  have c1 : (((cfg0.win 3).blk t).view.emb (ix2 r q)) 1 = (⟨t.val / 8 % 4 * 1024 + q.val, ho⟩ : Fin 4096) :=
    Fin.ext (by show win0_3.index t (1 : Fin 2) * 1024 + 1 * q.val = t.val / 8 % 4 * 1024 + q.val; rw [e1]; omega)
  show _ = layerEntry (acts m c) (wts m c) (biasRow m c) ((((cfg0.win 3).blk t).view.emb (ix2 r q)) 0)
    ((((cfg0.win 3).blk t).view.emb (ix2 r q)) 1)
  rw [c0, c1]

/-- An index of the result array is in point `t`'s block iff each coordinate is in the block's range on its axis. -/
theorem mem_blk (t : Fin cfg0.N) (i : S16384x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v10).slice (win0_3.rect t)).set ↔ _
  rw [View.set_slice_whole, Rect.mem_set_unit]
  exact Iff.rfl

/-- Every entry of the result array lies in the block some run's last point writes. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  obtain ⟨n, hn⟩ : ∃ n : ℕ, n = (i 0).val / 2048 * 32 + (i 1).val / 1024 * 8 + 7 := ⟨_, rfl⟩
  have hlt : n < cfg0.N := by rw [hN]; omega
  obtain ⟨-, -, -, -, -, -, e0, e1⟩ := block_indices ⟨n, hlt⟩
  refine ⟨⟨n, hlt⟩, (flush0_3 ⟨n, hlt⟩).mpr (by show n % 8 = 7; omega), ?_⟩
  rw [mem_blk]
  intro a
  match a with
  | ⟨0, _⟩ =>
    show win0_3.index ⟨n, hlt⟩ (0 : Fin 2) * 2048 ≤ (i 0).val ∧ (i 0).val < win0_3.index ⟨n, hlt⟩ (0 : Fin 2) * 2048 + 2048
    rw [e0]; show n / 32 * 2048 ≤ (i 0).val ∧ (i 0).val < n / 32 * 2048 + 2048; omega
  | ⟨1, _⟩ =>
    show win0_3.index ⟨n, hlt⟩ (1 : Fin 2) * 1024 ≤ (i 1).val ∧ (i 1).val < win0_3.index ⟨n, hlt⟩ (1 : Fin 2) * 1024 + 1024
    rw [e1]; show n / 8 % 4 * 1024 ≤ (i 1).val ∧ (i 1).val < n / 8 % 4 * 1024 + 1024; omega

/-- THE RESULT ARRAY of the region: the layer on the flattened batch. -/
theorem region_result (c : Dev nD) :
    (dats m 0 c).arrAt 3 cfg0.N = layer (acts m c) (wts m c) (biasRow m c) :=
  (dats m 0 c).arrAt_eq_of_cover 3 (layer (acts m c) (wts m c) (biasRow m c)) (flushed_eq m c) (covered)

end Cert.KernelIdeal.Final

end
-- ==== Proof.Whole.lean ====
/-
  The kernel program as a whole: its result is the layer of its three float arguments and the expanded mask.

  Before the region the host reads the [8, 2048, 4096] input as [16384, 4096] rows (row b·2048 + s is position s of batch
  element b), multiplies the weights by the mask expanded to [4096, 4096] and reads the bias vector as a [1, 4096] row;
  after the region it reads the [16384, 4096] result as [8, 2048, 4096].  Changes of float format are the identity on the
  extended reals.  So entry (b, s, o) of the result is twice the dot product of x(b, s, ·) with row o of the masked weights,
  plus bias(o).
-/
import proofs.«152369_j17849884082260_2_alg».proof.Proof.Final

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.KernelIdeal.Final BlockSparse

variable (m : (ℓ : Loc nD τ sig) → Buf (Elt Ideal) ℓ) (ρ : Dev nD → PrngReg)

/-- The weights times the block mask expanded to one entry per weight: each mask bit repeated over a 32 × 32 block, read as 0 or 1. -/
def maskedWeights (w : (⟨S4096x4096, .f32⟩ : BufTy).Contents (Elt Ideal)) (mask : (⟨S128x128, .i1⟩ : BufTy).Contents (Elt Ideal)) :
    S4096x4096.Idx → EReal :=
  mulf (F := Ideal) w (uitofp .f32 (shapeCast _ (broadcastInDim S4096x128x32 ![0, 1] bcast_S4096x128_S4096x128x32_0_1
    (shapeCast _ (broadcastInDim S128x32x128 ![0, 2] bcast_S128x128_S128x32x128_0_2 mask) shapeCasts_S128x32x128_S4096x128))
    shapeCasts_S4096x128x32_S4096x4096))

/-- The activations the region finds: the input re-laid as rows. -/
theorem acts_eq (c : Dev nD) :
    (V m c main_v8 : S16384x4096.Idx → EReal)
      = shapeCast S16384x4096 (m ((c : Thread nD τ).loc main_arg0)) shapeCasts_S8x2048x4096_S16384x4096 := by
  show StableHlo.after hostOps0 (fun b => m (c, b)) (Proc.devRef .tc main_v8) = _
  after_results
  rfl

/-- The weights the region finds: the masked weights. -/
theorem wts_eq (c : Dev nD) :
    (V m c main_v6 : S4096x4096.Idx → EReal)
      = maskedWeights (m ((c : Thread nD τ).loc main_arg1)) (m ((c : Thread nD τ).loc main_arg3)) := by
  show StableHlo.after hostOps0 (fun b => m (c, b)) (Proc.devRef .tc main_v6) = _
  after_results
  rfl

/-- The bias row the region finds: the bias vector re-laid. -/
theorem bias_eq (c : Dev nD) :
    (V m c main_v9 : S1x4096.Idx → EReal)
      = shapeCast S1x4096 (m ((c : Thread nD τ).loc main_arg2)) shapeCasts_S4096_S1x4096 := by
  show StableHlo.after hostOps0 (fun b => m (c, b)) (Proc.devRef .tc main_v9) = _
  after_results
  rfl

/-- Row b·2048 + s of the activations is position s of batch element b. -/
theorem acts_at (c : Dev nD) (b : Fin 8) (s : Fin 2048) (k : Fin 4096) (h : b.val * 2048 + s.val < 16384) :
    acts m c (ix2 ⟨b.val * 2048 + s.val, h⟩ k) = m ((c : Thread nD τ).loc main_arg0) (ix3 b s k) := by
  show (V m c main_v8 : S16384x4096.Idx → EReal) _ = _
  rw [acts_eq]
  exact shapeCast_apply _ shapeCasts_S8x2048x4096_S16384x4096 (ix2 ⟨b.val * 2048 + s.val, h⟩ k) (ix3 b s k)
    (by rewrite [Shape.rowMajor_val_three, Shape.rowMajor_val_two]
        show (b.val * 2048 + s.val) * 4096 + k.val = (b.val * 2048 + s.val) * 4096 + k.val; rfl)

/-- Entry o of the bias row is entry o of the bias vector. -/
theorem bias_at (c : Dev nD) (o : Fin 4096) :
    biasRow m c (ix2 0 o) = m ((c : Thread nD τ).loc main_arg2) (ix1 o) := by
  show (V m c main_v9 : S1x4096.Idx → EReal) _ = _
  rw [bias_eq]
  exact shapeCast_apply _ shapeCasts_S4096_S1x4096 (ix2 0 o) (ix1 o)
    (by rewrite [Shape.rowMajor_val_one, Shape.rowMajor_val_two]
        show o.val = 0 * 4096 + o.val; omega)

/-- After the region the host re-lays the result array. -/
theorem tail_eq (c : Dev nD) :
    Pipeline.afterTail₀ cfgs (dats m) 0 (V0 m) [hostOps1] c main_v11
      = shapeCast S8x2048x4096 ((dats m 0 c).arrAt 3 cfg0.N) shapeCasts_S16384x4096_S8x2048x4096 := by
  unfold Pipeline.afterTail₀
  show StableHlo.after hostOps1 _ (Proc.devRef .tc main_v11) = _
  after_results
  rw [Pipeline.withArrays_arr (cfgs 0).spec winFacts0.arr_inj c (V0 m c) (fun w => (dats m 0 c).arrAt w (cfgs 0).N) 3]
  rfl

/-- THE RESULT of the kernel program: the layer of the input, the masked weights and the bias. -/
theorem result_eq (c : Dev nD) :
    Pipeline.afterTail₀ cfgs (dats m) 0 (V0 m) [hostOps1] c main_v11
      = linear (m ((c : Thread nD τ).loc main_arg0))
          (maskedWeights (m ((c : Thread nD τ).loc main_arg1)) (m ((c : Thread nD τ).loc main_arg3)))
          (m ((c : Thread nD τ).loc main_arg2)) := by
  rw [tail_eq, region_result]
  funext i
  obtain ⟨b, s, o, rfl⟩ : ∃ (b : Fin 8) (s : Fin 2048) (o : Fin 4096), i = ix3 b s o := ⟨i 0, i 1, i 2, eq_ix3 i⟩
  have hb : b.val < 8 := b.isLt
  have hs : s.val < 2048 := s.isLt
  have h : b.val * 2048 + s.val < 16384 := by omega
  rw [linear_apply, shapeCast_apply _ shapeCasts_S16384x4096_S8x2048x4096 (ix3 b s o) (ix2 ⟨b.val * 2048 + s.val, h⟩ o)
    (by rewrite [Shape.rowMajor_val_three, Shape.rowMajor_val_two]
        show (b.val * 2048 + s.val) * 4096 + o.val = (b.val * 2048 + s.val) * 4096 + o.val; rfl)]
  show layerEntry (acts m c) (wts m c) (biasRow m c) ⟨b.val * 2048 + s.val, h⟩ o = _
  unfold layerEntry linearEntry
  rw [bias_at m c o]
  refine congrArg (fun y => ((2 : ℝ) : EReal) * y + m ((c : Thread nD τ).loc main_arg2) (ix1 o)) ?_
  refine Finset.sum_congr rfl fun k _ => ?_
  rw [acts_at m c b s k h]
  show _ * (V m c main_v6 : S4096x4096.Idx → EReal) (ix2 o k) = _
  rw [wts_eq]

/-- THE RUN of the kernel program, read: the result at the layer, the arguments unchanged. -/
theorem run : θ_run defs (onTc (τ := τ) (main (F := Ideal))) ⟨m, fun _ => 0, ρ⟩ fun r => ∀ c : Dev nD,
      r.2.mem ((c : Thread nD τ).loc main_v11)
        = linear (m ((c : Thread nD τ).loc main_arg0))
            (maskedWeights (m ((c : Thread nD τ).loc main_arg1)) (m ((c : Thread nD τ).loc main_arg3)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.LibDoubling.lean ====
/-
  Doubling on the extended reals.  The product of the real number 2 with an extended real `y` is `y + y`:
  for a real `y` this is the ring identity, and at either infinity both sides are that infinity.
  No finiteness is needed.
-/
import Mathlib.Data.EReal.Operations

namespace BlockSparse

/-- `2 · y = y + y` for every extended real `y`. -/
theorem two_mul_ereal (y : EReal) : ((2 : ℝ) : EReal) * y = y + y := by
  induction y using EReal.rec with
  | bot => rw [EReal.coe_mul_bot_of_pos (by norm_num : (0 : ℝ) < 2), EReal.bot_add]
  | coe r => rw [← EReal.coe_mul, ← EReal.coe_add, two_mul]
  | top => rw [EReal.coe_mul_top_of_pos (by norm_num : (0 : ℝ) < 2), EReal.top_add_top]

end BlockSparse
-- ==== Proof.RefSpec.lean ====
/-
  The reference computes the layer.

  The reference multiplies the weights by the expanded mask, takes the einsum y(b, s, o) = Σₖ x(b, s, k) · W(o, k), and
  returns (y + y) + bias.  On the extended reals y + y = 2 · y for every y, finite or not, so entry by entry this is the
  layer's function of the activations, the masked weights and the bias.
-/
import proofs.«152369_j17849884082260_2_alg».proof.Proof.Gen.ReferenceIdeal.Read
import proofs.«152369_j17849884082260_2_alg».proof.Proof.Spec
import proofs.«152369_j17849884082260_2_alg».proof.Proof.LibDoubling

noncomputable section

namespace Cert.ReferenceIdeal.RefSpec

open Idealize.ShloMosaic Idealize.ShloMosaic.ValueIdx
open Cert.ReferenceIdeal Cert.ReferenceIdeal.Read BlockSparse

/-- The reference's result is the layer of its activations, its masked weights (the stage `val_main_v5`) and its bias. -/
theorem reference_is_linear (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S128x128, .i1⟩ : BufTy).Contents (Elt Ideal)) :
    val_main_v10 (F := Ideal) x0 x1 x2 x3 = linear x0 (val_main_v5 (F := Ideal) x1 x3) x2 := by
  funext i
  obtain ⟨b, s, o, rfl⟩ : ∃ (b : Fin 8) (s : Fin 2048) (o : Fin 4096), i = ix3 b s o := ⟨i 0, i 1, i 2, eq_ix3 i⟩
  have el : ∀ k : Fin 4096, lidx_main_v6 (ix3 b s o) k = ix3 b s k := fun k => funext fun a => by
    match a with
    | ⟨0, _⟩ => rfl
    | ⟨1, _⟩ => rfl
    | ⟨2, _⟩ => rfl
  have er : ∀ k : Fin 4096, ridx_main_v6 (ix3 b s o) k = ix2 o k := fun k => funext fun a => by
    match a with
    | ⟨0, _⟩ => rfl
    | ⟨1, _⟩ => rfl
  have eb : idx_main_v8 (idx_main_v9 (ix3 b s o)) = ix1 o := funext fun a => by
    match a with
    | ⟨0, _⟩ => rfl
  rw [val_main_v10_apply, val_main_v7_apply, val_main_v9_apply, val_main_v8_apply, val_main_v6_apply, linear_apply]
  simp only [el, er, eb, Ideal.addf_def]
  unfold linearEntry
  rw [two_mul_ereal]

end Cert.ReferenceIdeal.RefSpec

end
-- ==== Proof.lean ====
/-
  A block-sparse linear layer: out(b, s, o) = 2 · Σₖ x(b, s, k) · W(o, k) + bias(o), where W is the [4096, 4096] weight matrix
  multiplied entry by entry with a [128, 128] block mask expanded so that each bit covers a 32 × 32 block.

  The kernel flattens the batch to 16384 rows and computes the product tile by tile: for each of 8 × 4 output tiles of
  2048 × 1024 entries it runs over eight tiles of 512 input features, adding each partial product into an accumulator that
  is cleared at the first tile, and at the last tile writes twice the accumulator plus the bias.  The reference takes the whole
  einsum y once and returns (y + y) + bias.

  On the extended reals both are the same function of the arguments.  The sum over 4096 features is the sum of its eight
  tiles in any grouping (addition is commutative and associative there, infinities included); 2 · y = y + y for every
  extended real y; a change of float format is the identity; and both programs build the masked weights by the same
  sequence of operations.  No finiteness of the inputs is used.

  The three frames: the two kernel programs by their frame runs, the reference by its run with the result dropped.  The
  idealization rewrote no operation, so there is nothing to preserve.
-/
import proofs.«152369_j17849884082260_2_alg».proof.Defs
import proofs.«152369_j17849884082260_2_alg».proof.Proof.Gen.Kernel
import proofs.«152369_j17849884082260_2_alg».proof.Proof.Gen.Kernel.Skeleton
import proofs.«152369_j17849884082260_2_alg».proof.Proof.Gen.Kernel.Launch
import proofs.«152369_j17849884082260_2_alg».proof.Proof.Gen.Kernel.Points
import proofs.«152369_j17849884082260_2_alg».proof.Proof.Gen.Kernel.Frame
import proofs.«152369_j17849884082260_2_alg».proof.Proof.Gen.KernelIdeal
import proofs.«152369_j17849884082260_2_alg».proof.Proof.Gen.KernelIdeal.Skeleton
import proofs.«152369_j17849884082260_2_alg».proof.Proof.Gen.KernelIdeal.Launch
import proofs.«152369_j17849884082260_2_alg».proof.Proof.Gen.KernelIdeal.Points
import proofs.«152369_j17849884082260_2_alg».proof.Proof.Gen.KernelIdeal.Frame
import proofs.«152369_j17849884082260_2_alg».proof.Proof.Gen.ReferenceIdeal
import proofs.«152369_j17849884082260_2_alg».proof.Proof.Gen.ReferenceIdeal.Run
import proofs.«152369_j17849884082260_2_alg».proof.Proof.Gen.ReferenceIdeal.Read
import proofs.«152369_j17849884082260_2_alg».proof.Proof.Gen.Pre_finite_inputs
import proofs.«152369_j17849884082260_2_alg».proof.Proof.Whole
import proofs.«152369_j17849884082260_2_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs build the masked weights by the same operations of the weights and the mask. -/
theorem maskedWeights_eq (w : (⟨Cert.KernelIdeal.S4096x4096, .f32⟩ : BufTy).Contents (Elt Ideal))
    (mask : (⟨Cert.KernelIdeal.S128x128, .i1⟩ : BufTy).Contents (Elt Ideal)) :
    Cert.ReferenceIdeal.Read.val_main_v5 (F := Ideal) w mask = Cert.KernelIdeal.Whole.maskedWeights w mask := rfl

/-- The kernel's result is the layer of its arguments (the accumulation over eight tiles summed up, the epilogue doubling and
    adding the bias); the reference's is the layer of its arguments (the einsum, y + y = 2 · y); the arguments agree. -/
theorem algebraic : Cert.algebraic_KernelIdeal_ReferenceIdeal := by
  intro m ρ m' ρ' _ hagree
  refine ⟨fun c => BlockSparse.linear (m ((c.tc : Thread Cert.KernelIdeal.nD Cert.KernelIdeal.τ).loc Cert.KernelIdeal.main_arg0))
      (Cert.KernelIdeal.Whole.maskedWeights (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefSpec.reference_is_linear, maskedWeights_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
